-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S512x512 : Shape := ⟨2, ![512, 512]⟩
abbrev S512 : Shape := ⟨1, ![512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S131072x512 .f32) (main_arg1 : FVec F S512x512 .f32) (main_arg2 : FVec F S512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S131072x512 : Shape := ⟨2, ![131072, 512]⟩
abbrev S512x512 : Shape := ⟨2, ![512, 512]⟩
abbrev S512 : Shape := ⟨1, ![512]⟩
abbrev S1x512 : Shape := ⟨2, ![1, 512]⟩
abbrev S4096x512 : Shape := ⟨2, ![4096, 512]⟩

abbrev nBuf : Space → Nat
  | .hbm => 9
  | .vmem => 7
  | .smem => 0
  | _ => 0

abbrev bufTy : (tb : Table) → Fin (tcTables nBuf tb) → BufTy
  | .hbm, ⟨0, _⟩ => ⟨S131072x512, .f32⟩
  | .hbm, ⟨1, _⟩ => ⟨S512x512, .f32⟩
  | .hbm, ⟨2, _⟩ => ⟨S512, .f32⟩
  | .hbm, ⟨3, _⟩ => ⟨S512x512, .bf16⟩
  | .hbm, ⟨4, _⟩ => ⟨S512x512, .f32⟩
  | .hbm, ⟨5, _⟩ => ⟨S512x512, .f32⟩
  | .hbm, ⟨6, _⟩ => ⟨S512x512, .bf16⟩
  | .hbm, ⟨7, _⟩ => ⟨S1x512, .f32⟩
  | .hbm, ⟨8, _⟩ => ⟨S131072x512, .f32⟩
  | .local _ .vmem, ⟨0, _⟩ => ⟨S4096x512, .f32⟩
  | .local _ .vmem, ⟨1, _⟩ => ⟨S4096x512, .f32⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S4096x512, .f32⟩
  | .local _ .vmem, ⟨6, _⟩ => ⟨S4096x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  shapeCasts_S512_S1x512 : S512.ShapeCasts S1x512
  inb_S4096x512_S4096x512_0_0 : ∀ a, (![0, 0] : Fin 2 → Nat) a + S4096x512.size a ≤ S4096x512.size a
  h_S4096x512 : 0 < S4096x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  dot_S4096x512_S512x512_S4096x512_1_0_0_1_n_n_wf : DotDims.WF S4096x512 S512x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x512.size a ≤ S131072x512.size a
  hwx0_4 : ∀ i : grid0.Coords, EltTy.bits .f32 = 32 ∨ (Rect.block (s := S131072x512) S4096x512.size (cc0_transform_4 i) (hinb0_4 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4096x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x512 : Shape := ⟨2, ![131072, 512]⟩
abbrev S512x512 : Shape := ⟨2, ![512, 512]⟩
abbrev S512 : Shape := ⟨1, ![512]⟩
abbrev S1x512 : Shape := ⟨2, ![1, 512]⟩

abbrev nBuf : Space → Nat
  | .hbm => 7
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S512x512, .f32⟩
  | .hbm, ⟨2, _⟩ => ⟨S512, .f32⟩
  | .hbm, ⟨3, _⟩ => ⟨S131072x512, .f32⟩
  | .hbm, ⟨4, _⟩ => ⟨S1x512, .f32⟩
  | .hbm, ⟨5, _⟩ => ⟨S131072x512, .f32⟩
  | .hbm, ⟨6, _⟩ => ⟨S131072x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  dot_S131072x512_S512x512_S131072x512_1_0_0_1_n_n_wf : DotDims.WF S131072x512 S512x512 S131072x512 [1] [0] [0] [1] [] []

variable [Facts₀]

def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf

class Facts : Prop extends Facts₀ where

variable [Facts]
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.Body.lean ====
/-
  One grid point's arithmetic, read at an index. The body takes a `[4096, 512]` block `x` of the inputs, the two
  `[512, 512]` weight parts `w₁`, `w₂` and the bias row `b : [1, 512]`, and stores
  `x·w₁ + x·w₂ + b` (each product accumulated from zero, the bias broadcast down the rows). Over the extended reals a
  change of float format is the identity, so entry `(p, q)` of the stored block is
  `(∑ k, x (p, k) · w₁ (k, q)) + (∑ k, x (p, k) · w₂ (k, q)) + b (0, q)`.
-/
import proofs.«129169_j62758062129168_2_alg».proof.Proof.Gen.KernelIdeal.Skeleton
import proofs.«129169_j62758062129168_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The body's matrix product contracts the block's columns with the weights' rows: the plain dimension numbers. -/
theorem dot_plain : dot_S4096x512_S512x512_S4096x512_1_0_0_1_n_n = DotDims.plain 4096 512 512 := rfl

/-- The bias row broadcast down the 4096 rows of a block reads, at `(p, q)`, the row's entry `(0, q)`. -/
theorem bias_rows (b : FVec Ideal S1x512 .f32) (p : Fin 4096) (q : Fin 512) :
    broadcastTo S4096x512 (shapeCast S1x512 b shapeCasts_S1x512_S1x512) broadcasts_S1x512_S4096x512 (ix2 p q)
      = b (ix2 (0 : Fin 1) q) := by
  rw [shapeCast_self]
  refine broadcastTo_apply _ _ _ _ fun a => ?_
  match a with
  | ⟨0, _⟩ => show (0 : Nat) = if (1 : Nat) = 1 then 0 else _; rw [if_pos rfl]
  | ⟨1, _⟩ => show q.val = if (512 : Nat) = 1 then 0 else q.val; rw [if_neg (by decide)]

/-- A product of the block with one weight part, accumulated from zero, at `(p, q)`: `∑ k, x (p, k) · w (k, q)`. -/
theorem product_at (x : FVec Ideal S4096x512 .f32) (w : FVec Ideal S512x512 .bf16) (p : Fin 4096) (q : Fin 512) :
    matmul (F := Ideal) dot_S4096x512_S512x512_S4096x512_1_0_0_1_n_n none (truncf .bf16 x bitsLt_bf16_f32)
        (shapeCast S512x512 w shapeCasts_S512x512_S512x512) (constant (F := Ideal) S4096x512 .f32 0x00000000#32) (ix2 p q)
      = ∑ k : Fin 512, x (ix2 p k) * w (ix2 k q) := by
  rw [shapeCast_self]
  exact Cert.Proof.PlainDot.matmul_plain_zero (M := 4096) (K := 512) (N := 512) none (truncf .bf16 x bitsLt_bf16_f32) w (ix2 p q)

/-- THE BLOCK A POINT STORES, at `(p, q)`: the two products' sums and the bias row's entry. -/
theorem pay_at (x : Vec Ideal S4096x512 .f32) (w₁ w₂ : Vec Ideal S512x512 .bf16) (b : Vec Ideal S1x512 .f32)
    (p : Fin 4096) (q : Fin 512) :
    k0_pay1 (F := Ideal) x w₁ w₂ b (ix2 p q)
      = ((∑ k : Fin 512, x (ix2 p k) * w₁ (ix2 k q)) + (∑ k : Fin 512, x (ix2 p k) * w₂ (ix2 k q))) + b (ix2 (0 : Fin 1) q) := by
  unfold k0_pay1
  show (matmul _ none _ _ _ (ix2 p q) + matmul _ none _ _ _ (ix2 p q)) + broadcastTo _ _ _ (ix2 p q) = _
  rw [product_at, product_at, bias_rows]

end Cert.KernelIdeal.Body

end
-- ==== Proof.Affine.lean ====
/-
  The affine map `y = x·W + b` over the extended reals, index by index, beside the form the kernel computes it in:
  the weight matrix is split into a leading part `W₁` and a remainder `W₂`, and each output entry is
  `(∑ k, x (r, k) · W₁ (k, c)) + (∑ k, x (r, k) · W₂ (k, c)) + b c`. When the leading part is `W` itself and the
  remainder is `W − W`, the second sum vanishes as soon as every weight is a real number (on the extended reals
  `w − w = 0` fails only at the two infinities, and `x · 0 = 0` holds for every `x`), and the split form is the
  affine map.
-/
import Idealize.ShloMosaic.PureOps.Ideal
import Idealize.ShloMosaic.Lib.ValueIdx

noncomputable section

open scoped BigOperators

namespace Cert.Proof.Affine

open Idealize.ShloMosaic Idealize.ShloMosaic.ValueIdx

/-- Entry `(r, c)` of `x·W + b`: row `r` of `x` against column `c` of `W`, plus `b c`. -/
def affine (X : (⟨2, ![131072, 512]⟩ : Shape).Idx → EReal) (W : (⟨2, ![512, 512]⟩ : Shape).Idx → EReal)
    (B : (⟨1, ![512]⟩ : Shape).Idx → EReal) : (⟨2, ![131072, 512]⟩ : Shape).Idx → EReal :=
  fun i => (∑ k : Fin 512, X (ix2 (i 0) k) * W (ix2 k (i 1))) + B (ix1 (i 1))

/-- Entry `(r, c)` of `x·W₁ + x·W₂ + b`, the bias held as a one-row matrix. -/
def splitAffine (X : (⟨2, ![131072, 512]⟩ : Shape).Idx → EReal) (W₁ W₂ : (⟨2, ![512, 512]⟩ : Shape).Idx → EReal)
    (B : (⟨2, ![1, 512]⟩ : Shape).Idx → EReal) : (⟨2, ![131072, 512]⟩ : Shape).Idx → EReal :=
  fun i => ((∑ k : Fin 512, X (ix2 (i 0) k) * W₁ (ix2 k (i 1))) + (∑ k : Fin 512, X (ix2 (i 0) k) * W₂ (ix2 k (i 1))))
    + B (ix2 (0 : Fin 1) (i 1))

/-- A real number minus itself is zero on the extended reals. -/
theorem sub_self_of_real {w : EReal} (h : ∃ r : ℝ, w = (r : EReal)) : w - w = 0 := by
  obtain ⟨r, rfl⟩ := h
  rw [← EReal.coe_sub, sub_self, EReal.coe_zero]

/-- Against a family of real weights, the products with `w − w` sum to zero, whatever the other factors are. -/
theorem sum_mul_sub_self {ι : Type} [Fintype ι] (x w : ι → EReal) (hw : ∀ k, ∃ r : ℝ, w k = (r : EReal)) :
    (∑ k, x k * (w k - w k)) = 0 :=
  Finset.sum_eq_zero fun k _ => by rw [sub_self_of_real (hw k), mul_zero]

/-- The split form with leading part `W` and remainder `W − W` is the affine map, for real weights: the second sum
    is zero and the row-form bias is the bias. -/
theorem splitAffine_eq (X : (⟨2, ![131072, 512]⟩ : Shape).Idx → EReal) (W : (⟨2, ![512, 512]⟩ : Shape).Idx → EReal)
    (B : (⟨1, ![512]⟩ : Shape).Idx → EReal) (B' : (⟨2, ![1, 512]⟩ : Shape).Idx → EReal)
    (hW : ∀ j, ∃ r : ℝ, W j = (r : EReal)) (hB : ∀ q : Fin 512, B' (ix2 (0 : Fin 1) q) = B (ix1 q)) :
    splitAffine X W (fun j => W j - W j) B' = affine X W B := by
  funext i
  unfold splitAffine affine
  rw [sum_mul_sub_self _ _ (fun k => hW _), add_zero, hB (i 1)]

end Cert.Proof.Affine

end
-- ==== Proof.Prefix.lean ====
/-
  The arrays the kernel's region finds. Before the region the program computes, from the weights `W` and the bias `b`:
  the leading weight part (`W` narrowed to the short format), the remainder (`W` minus the leading part widened back,
  narrowed again) and the bias as a one-row matrix. Over the extended reals a change of format is the identity, so the
  leading part is `W`, the remainder is `W − W` entry by entry, and the one-row matrix reads `b q` at `(0, q)`.
-/
import proofs.«129169_j62758062129168_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Prefix

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The weight matrix and the bias as launched, as functions to the extended reals. -/
abbrev weights (c : Dev nD) : S512x512.Idx → EReal := m ((c : Thread nD τ).loc main_arg1)
abbrev bias (c : Dev nD) : S512.Idx → EReal := m ((c : Thread nD τ).loc main_arg2)

/-- The leading weight part the region finds is the weight matrix. -/
theorem lead_eq (c : Dev nD) :
    (V m c main_v0 : S512x512.Idx → EReal) = weights m c := by
  dsimp only [V, hostOps0]; after_results; rfl

/-- The remainder the region finds is `W − W`, entry by entry. -/
theorem rest_eq (c : Dev nD) :
    (V m c main_v3 : S512x512.Idx → EReal)
      = fun j => weights m c j - weights m c j := by
  dsimp only [V, hostOps0]; after_results; rfl

/-- The bias row the region finds is the bias reshaped to one row. -/
theorem bias_eq (c : Dev nD) :
    (V m c main_v4 : S1x512.Idx → EReal)
      = shapeCast S1x512 (bias m c) shapeCasts_S512_S1x512 := by
  dsimp only [V, hostOps0]; after_results; rfl

/-- Read at `(0, q)` the bias row is `b q`: both have row-major position `q`. -/
theorem bias_at (c : Dev nD) (q : Fin 512) :
    (V m c main_v4 : S1x512.Idx → EReal) (ix2 (0 : Fin 1) q) = bias m c (ix1 q) := by
  rw [bias_eq]
  refine shapeCast_apply (bias m c) shapeCasts_S512_S1x512 (ix2 (0 : Fin 1) q) (ix1 q) ?_
  show (S512.rowMajor (ix1 q)).val = (S1x512.rowMajor (ix2 (0 : Fin 1) q)).val
  rw [Shape.rowMajor_val_one, Shape.rowMajor_val_two]
  show q.val = 0 * 512 + q.val
  omega

end Cert.KernelIdeal.Prefix

end
-- ==== Proof.Blocks.lean ====
/-
  From blocks to the array. The grid has 32 points; point `t` reads rows `4096·t … 4096·t + 4095` of the inputs and
  the whole of the two weight parts and of the bias row, and writes rows `4096·t … 4096·t + 4095` of the result. So what
  point `t` writes back is block `t` of ONE function of the arrays the region finds — entry `(r, c)` is
  `(∑ k, x (r, k) · W₁ (k, c)) + (∑ k, x (r, k) · W₂ (k, c)) + b (0, c)` — and, the 32 row blocks covering all 131072 rows,
  the result array ends holding that function.
-/
import proofs.«129169_j62758062129168_2_alg».proof.Proof.Gen.KernelIdeal.Value
import proofs.«129169_j62758062129168_2_alg».proof.Proof.Body
import proofs.«129169_j62758062129168_2_alg».proof.Proof.Affine
import proofs.«129169_j62758062129168_2_alg».proof.Proof.Prefix

set_option maxRecDepth 16384

noncomputable section

open scoped BigOperators

namespace Cert.KernelIdeal.Blocks

open Cert.KernelIdeal Cert.KernelIdeal.Gen Cert.KernelIdeal.Value Idealize.ShloMosaic Idealize.ShloMosaic.TcCoe Idealize.SL.Sem
open Idealize.ShloMosaic.ValueIdx Cert.Proof.Affine
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The index maps over the 32 points: the inputs' and the result's blocks are row block `t`, the weight parts and the
    bias row are always their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The function the result array ends holding, of the arrays as the region finds them. -/
abbrev found (c : Dev nD) : S131072x512.Idx → EReal :=
  splitAffine (V m c main_arg0) (V m c main_v0) (V m c main_v3) (V m c main_v4)

/-- One point's stored block is the matching rows of the split affine map: stated over a block `x` that is rows
    `r₀ … r₀ + 4095` of `X`, and the weight parts and bias row themselves. -/
theorem block_rows (X : S131072x512.Idx → EReal) (W₁ W₂ : S512x512.Idx → EReal) (B : S1x512.Idx → EReal)
    (x : Vec Ideal S4096x512 .f32) (w₁ w₂ : Vec Ideal S512x512 .bf16) (b : Vec Ideal S1x512 .f32)
    (r₀ : Nat) (hr : r₀ + 4096 ≤ 131072)
    (hx : ∀ (p : Fin 4096) (k : Fin 512), x (ix2 p k) = X (ix2 (⟨r₀ + p.val, by omega⟩ : Fin 131072) k))
    (hw₁ : ∀ j, w₁ j = W₁ j) (hw₂ : ∀ j, w₂ j = W₂ j) (hb : ∀ j, b j = B j) (p : Fin 4096) (q : Fin 512) :
    k0_pay1 (F := Ideal) x w₁ w₂ b (ix2 p q) = splitAffine X W₁ W₂ B (ix2 (⟨r₀ + p.val, by omega⟩ : Fin 131072) q) := by
  rw [Body.pay_at]
  unfold splitAffine
  simp only [hx, hw₁, hw₂, hb]

/-- There are 32 grid points. -/
theorem point_lt (t : Fin cfg0.N) : t.val < 32 := lt_of_lt_of_eq t.isLt N_0

/-- The inputs' block at point `t` is rows `4096·t … 4096·t + 4095` of the inputs. -/
theorem inputs_block (c : Dev nD) (t : Fin cfg0.N) (p : Fin 4096) (k : Fin 512) :
    (iblk m c 0 t : Vec Ideal S4096x512 .f32) (ix2 p k)
      = V m c main_arg0 (ix2 (⟨t.val * 4096 + p.val, by have := point_lt t; omega⟩ : Fin 131072) k) := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 4096 + 1 * p.val = t.val * 4096 + p.val; rw [e0]; omega
  | ⟨1, _⟩ => show win0_0.index t (1 : Fin 2) * 512 + 1 * k.val = k.val; rw [e1]; omega

/-- The leading weight part's block at every point is the whole part. -/
theorem lead_block (c : Dev nD) (t : Fin cfg0.N) (j : S512x512.Idx) :
    (iblk m c 1 t : Vec Ideal S512x512 .bf16) j = V m c main_v0 j := by
  obtain ⟨-, -, e2, e3, -⟩ := idx_facts t
  unfold iblk
  rw [View.read_apply]
  show V m c main_v0 _ = V m c main_v0 _
  refine congrArg (V m c main_v0) (funext fun a => Fin.ext ?_)
  match a with
  | ⟨0, _⟩ => show win0_1.index t (0 : Fin 2) * 512 + 1 * (j 0).val = (j 0).val; rw [e2]; omega
  | ⟨1, _⟩ => show win0_1.index t (1 : Fin 2) * 512 + 1 * (j 1).val = (j 1).val; rw [e3]; omega

/-- The remainder's block at every point is the whole remainder. -/
theorem rest_block (c : Dev nD) (t : Fin cfg0.N) (j : S512x512.Idx) :
    (iblk m c 2 t : Vec Ideal S512x512 .bf16) j = V m c main_v3 j := by
  obtain ⟨-, -, -, -, e4, e5, -⟩ := idx_facts t
  unfold iblk
  rw [View.read_apply]
  show V m c main_v3 _ = V m c main_v3 _
  refine congrArg (V m c main_v3) (funext fun a => Fin.ext ?_)
  match a with
  | ⟨0, _⟩ => show win0_2.index t (0 : Fin 2) * 512 + 1 * (j 0).val = (j 0).val; rw [e4]; omega
  | ⟨1, _⟩ => show win0_2.index t (1 : Fin 2) * 512 + 1 * (j 1).val = (j 1).val; rw [e5]; omega

/-- The bias row's block at every point is the whole row. -/
theorem bias_block (c : Dev nD) (t : Fin cfg0.N) (j : S1x512.Idx) :
    (iblk m c 3 t : Vec Ideal S1x512 .f32) j = V m c main_v4 j := by
  obtain ⟨-, -, -, -, -, -, e6, e7, -⟩ := idx_facts t
  unfold iblk
  rw [View.read_apply]
  show V m c main_v4 _ = V m c main_v4 _
  refine congrArg (V m c main_v4) (funext fun a => Fin.ext ?_)
  match a with
  | ⟨0, _⟩ => show win0_3.index t (0 : Fin 2) * 1 + 1 * (j 0).val = (j 0).val; rw [e6]; omega
  | ⟨1, _⟩ => show win0_3.index t (1 : Fin 2) * 512 + 1 * (j 1).val = (j 1).val; rw [e7]; omega

/-- WHAT POINT `t` WRITES BACK is block `t` of `found`. -/
theorem flushed_eq (c : Dev nD) (t : Fin cfg0.N) :
    (dats m 0 c).flushed 4 t = ((cfg0.win 4).blk t).view.read (Elt Ideal) (found m c) := by
  rw [flushed4]
  unfold out0_4
  rw [View.canon_unit_zero zero_offsets]
  simp only [View.ld_unit_zero (S := S4096x512) zero_offsets, View.ld_unit_zero (S := S512x512) zero_offsets,
    View.ld_unit_zero (S := S1x512) zero_offsets]
  obtain ⟨-, -, -, -, -, -, -, -, e8, e9⟩ := idx_facts t
  have ht := point_lt t
  funext j
  show k0_pay1 (F := Ideal) (iblk m c 0 t) (iblk m c 1 t) (iblk m c 2 t) (iblk m c 3 t) j
    = found m c (((cfg0.win 4).blk t).view.emb j)
  refine (congrArg (k0_pay1 (F := Ideal) (iblk m c 0 t) (iblk m c 1 t) (iblk m c 2 t) (iblk m c 3 t))
    (eq_ix2 (n0 := 4096) (n1 := 512) j)).trans ?_
  refine (block_rows (V m c main_arg0) (V m c main_v0) (V m c main_v3) (V m c main_v4)
    (iblk m c 0 t) (iblk m c 1 t) (iblk m c 2 t) (iblk m c 3 t) (t.val * 4096) (by omega)
    (inputs_block m c t) (lead_block m c t) (rest_block m c t) (bias_block m c t) (j 0) (j 1)).trans ?_
  refine congrArg (found m c) (funext fun a => Fin.ext ?_)
  match a with
  | ⟨0, _⟩ => show t.val * 4096 + (j 0).val = win0_4.index t (0 : Fin 2) * 4096 + 1 * (j 0).val; rw [e8]; omega
  | ⟨1, _⟩ => show (j 1).val = win0_4.index t (1 : Fin 2) * 512 + 1 * (j 1).val; rw [e9]; omega

/-- An index of the result array is in point `t`'s block iff each coordinate is in the block's range on its axis. -/
theorem mem_blk (t : Fin cfg0.N) (i : S131072x512.Idx) :
    i ∈ ((cfg0.win 4).blk t).view.set ↔ ∀ a : Fin 2, win0_4.index t a * S4096x512.size a ≤ (i a).val
      ∧ (i a).val < win0_4.index t a * S4096x512.size a + S4096x512.size a := by
  show i ∈ ((View.whole main_v5).slice (win0_4.rect t)).set ↔ _
  rw [View.set_slice_whole, Rect.mem_set_unit]
  exact Iff.rfl

/-- Row `r` of the result is written by point `r / 4096`: the 32 row blocks cover the array. -/
theorem cover (i : S131072x512.Idx) :
    ∃ t : Fin cfg0.N, (cfg0.win 4).flush t = true ∧ i ∈ ((cfg0.win 4).blk t).view.set := by
  have hi0 : (i 0).val < 131072 := (i 0).isLt
  have hi1 : (i 1).val < 512 := (i 1).isLt
  have hN : cfg0.N = 32 := N_0
  obtain ⟨t, ht⟩ : ∃ t : Fin cfg0.N, t.val = (i 0).val / 4096 := ⟨⟨(i 0).val / 4096, by rw [hN]; omega⟩, rfl⟩
  obtain ⟨-, -, -, -, -, -, -, -, e8, e9⟩ := idx_facts t
  refine ⟨t, flush0_4 t, ?_⟩
  rw [mem_blk]
  intro a
  match a with
  | ⟨0, _⟩ =>
    show win0_4.index t (0 : Fin 2) * 4096 ≤ (i 0).val ∧ (i 0).val < win0_4.index t (0 : Fin 2) * 4096 + 4096
    rw [e8, ht]; omega
  | ⟨1, _⟩ =>
    show win0_4.index t (1 : Fin 2) * 512 ≤ (i 1).val ∧ (i 1).val < win0_4.index t (1 : Fin 2) * 512 + 512
    rw [e9]; omega

/-- THE RESULT ARRAY after the run is `found`. -/
theorem final (c : Dev nD) : (dats m 0 c).arrAt 4 cfg0.N = found m c :=
  (dats m 0 c).arrAt_eq_of_cover 4 (found m c) (fun t _ => flushed_eq m c t) cover

/-- Where every weight is a real number, `found` is the affine map of the arguments as launched: the inputs are
    untouched before the region, the leading part is `W`, the remainder `W − W`, the bias row the bias. -/
theorem found_affine (c : Dev nD) (hW : ∀ j, ∃ r : ℝ, Prefix.weights m c j = (r : EReal)) :
    found m c = affine (m ((c : Thread nD τ).loc main_arg0)) (Prefix.weights m c) (Prefix.bias m c) := by
  have h0 : (V m c main_arg0 : S131072x512.Idx → EReal) = m ((c : Thread nD τ).loc main_arg0) := V_main_arg0 m c
  have h1 := Prefix.lead_eq m c
  have h3 := Prefix.rest_eq m c
  show splitAffine _ _ _ _ = _
  rw [h0, h1, h3]
  exact splitAffine_eq _ _ _ _ hW (Prefix.bias_at m c)

/-- The run, read: the result array at `found`, the arguments unchanged. -/
theorem run : θ_run defs (onTc (τ := τ) (main (F := Ideal))) ⟨m, fun _ => 0, ρ⟩ fun r => ∀ c : Dev nD,
      r.2.mem ((c : Thread nD τ).loc main_v5) = found m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Blocks

end
-- ==== Proof.RefAffine.lean ====
/-
  The reference program's result is the affine map. Its four host operations are a `dot_general` of the inputs with
  the weights, two broadcasts that carry the bias `b : [512]` to `[1, 512]` and then to every row of
  `[131072, 512]`, and an elementwise sum. Read at an index `(r, c)` over the extended reals: the product is
  `∑ k, x (r, k) · W (k, c)` and the broadcast bias is `b c`.
-/
import proofs.«129169_j62758062129168_2_alg».proof.Proof.Gen.ReferenceIdeal.Read
import proofs.«129169_j62758062129168_2_alg».proof.Proof.Affine

noncomputable section

open scoped BigOperators

namespace Cert.ReferenceIdeal.RefValue

open Cert.ReferenceIdeal Cert.ReferenceIdeal.Read Idealize.ShloMosaic Idealize.ShloMosaic.ValueIdx

/-- The reference's last stage, as a function of the three argument arrays, is `x·W + b` index by index. -/
theorem ref_affine (x0 : (⟨S131072x512, .f32⟩ : BufTy).Contents (Elt Ideal)) (x1 : (⟨S512x512, .f32⟩ : BufTy).Contents (Elt Ideal))
    (x2 : (⟨S512, .f32⟩ : BufTy).Contents (Elt Ideal)) :
    val_main_v3 (F := Ideal) x0 x1 x2 = Cert.Proof.Affine.affine x0 x1 x2 := by
  funext i
  -- the left operand of the product is read at (r, k), the right at (k, c), the bias at c
  have el : ∀ k : Fin 512, lidx_main_v0 i k = ix2 (i 0) k := fun k =>
    funext fun a => by match a with | ⟨0, _⟩ => rfl | ⟨1, _⟩ => rfl
  have er : ∀ k : Fin 512, ridx_main_v0 i k = ix2 k (i 1) := fun k =>
    funext fun a => by match a with | ⟨0, _⟩ => rfl | ⟨1, _⟩ => rfl
  have eb : idx_main_v1 (idx_main_v2 i) = ix1 (i 1) :=
    funext fun a => by match a with | ⟨0, _⟩ => rfl
  rw [val_main_v3_apply, val_main_v0_apply, val_main_v2_apply, val_main_v1_apply]
  simp only [el, er, eb]
  rfl

end Cert.ReferenceIdeal.RefValue

end
-- ==== Proof.Finite.lean ====
/-
  What the precondition gives: every weight is a real number. The precondition is the conjunction, over the three
  argument arrays, of "every entry's absolute value is below +∞"; each conjunct is an `and`-reduction of elementwise
  comparisons over the whole array, so where it holds every entry passes its comparison, and an extended real whose
  absolute value is below +∞ is neither infinity.
-/
import proofs.«129169_j62758062129168_2_alg».proof.Pre_finite_inputs
import Idealize.ShloMosaic.Lib.ReduceAll
import Idealize.ShloMosaic.Lib.ValueIdx
import Idealize.ShloMosaic.PureOps.Ideal

noncomputable section

namespace Cert.Pre_finite_inputs.Finite

open Cert.Pre_finite_inputs Idealize.ShloMosaic

/-- The scalar shape has one index. -/
instance : Subsingleton S_.Idx := ⟨fun a b => funext fun d => d.elim0⟩

/-- The word `0x7F800000` is +∞. -/
theorem inf_word : Ideal.ofBits .f32 0x7F800000#32 = (⊤ : EReal) := by
  simp [Ideal.ofBits, Ideal.ieee]

/-- An extended real whose absolute value `max x (−x)` compares below +∞ is a real number. -/
theorem real_of_abs_lt (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

variable [Facts]

/-- Where the precondition holds of `(inputs, weight, bias)`, every entry of `weight` is a real number. -/
theorem weight_real (x0 : FVec Ideal S131072x512 .f32) (x1 : FVec Ideal S512x512 .f32) (x2 : FVec Ideal S512 .f32)
    (h : fn (F := Ideal) x0 x1 x2 = fun _ => 1#1) (j : S512x512.Idx) : ∃ r : ℝ, x1 j = (r : EReal) := by
  have h0 := congrFun h ValueIdx.ix0
  dsimp only [fn] at h0
  -- the conjunction's middle conjunct is the weights'
  obtain ⟨h01, -⟩ := IntOp.andi_eq_one.mp h0
  obtain ⟨-, h1⟩ := IntOp.andi_eq_one.mp h01
  have e := Host.reduce_andi_all _ _ _ _ _ h1 j
  refine real_of_abs_lt (x1 j) ?_
  rw [← inf_word]
  exact e

end Cert.Pre_finite_inputs.Finite

end
-- ==== Proof.lean ====
/-
  The kernel computes `y = x·W + b` for `x : [131072, 512]`, `W : [512, 512]`, `b : [512]` in 32 row blocks of 4096 rows, with
  the weight matrix split in two: a leading part (`W` narrowed to a shorter float format) and a remainder (`W` minus the
  leading part widened back, narrowed again); each block's result is `x·lead + x·rest + b`. The reference is one matrix
  product plus the broadcast bias.

  Over the extended reals a change of float format is the identity, so the leading part is `W` and the remainder is
  `W − W` entry by entry. The precondition makes every weight a real number, hence `W − W = 0`; and `x · 0 = 0` for every
  extended real `x`, so the second product is zero whatever the inputs hold, and `s + 0 = s`. Both programs therefore end
  with entry `(r, c)` of the result at `(∑ k, x (r, k) · W (k, c)) + b c` (`Cert.Proof.Affine.affine`). Finiteness of the
  weights is the one place the precondition is used; nothing is asked of the inputs or the bias.

  The modules: `Affine` (the map, the split form, and the law joining them), `RefAffine` (the reference's four operations
  read at an index), `Body` (one grid point's arithmetic read at an index), `Prefix` (the arrays the kernel's region
  finds), `Blocks` (what each point writes back is a row block of one function, the blocks cover the result),
  `Finite` (the precondition gives real weights), and `LibPlainDot` (a plain matrix product as a sum over `k`).
-/
import proofs.«129169_j62758062129168_2_alg».proof.Defs
import proofs.«129169_j62758062129168_2_alg».proof.Proof.Gen.Kernel
import proofs.«129169_j62758062129168_2_alg».proof.Proof.Gen.Kernel.Skeleton
import proofs.«129169_j62758062129168_2_alg».proof.Proof.Gen.Kernel.Launch
import proofs.«129169_j62758062129168_2_alg».proof.Proof.Gen.Kernel.Points
import proofs.«129169_j62758062129168_2_alg».proof.Proof.Gen.Kernel.Frame
import proofs.«129169_j62758062129168_2_alg».proof.Proof.Gen.KernelIdeal
import proofs.«129169_j62758062129168_2_alg».proof.Proof.Gen.KernelIdeal.Skeleton
import proofs.«129169_j62758062129168_2_alg».proof.Proof.Gen.KernelIdeal.Launch
import proofs.«129169_j62758062129168_2_alg».proof.Proof.Gen.KernelIdeal.Points
import proofs.«129169_j62758062129168_2_alg».proof.Proof.Gen.KernelIdeal.Frame
import proofs.«129169_j62758062129168_2_alg».proof.Proof.Gen.ReferenceIdeal
import proofs.«129169_j62758062129168_2_alg».proof.Proof.Gen.Pre_finite_inputs
import proofs.«129169_j62758062129168_2_alg».proof.Proof.Gen.KernelIdeal.Value
import proofs.«129169_j62758062129168_2_alg».proof.Proof.Gen.ReferenceIdeal.Run
import proofs.«129169_j62758062129168_2_alg».proof.Proof.Gen.ReferenceIdeal.Read
import proofs.«129169_j62758062129168_2_alg».proof.Proof.Blocks
import proofs.«129169_j62758062129168_2_alg».proof.Proof.RefAffine
import proofs.«129169_j62758062129168_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- At the extended reals the kernel's result array ends at the split affine map of the arrays its region finds, the
    reference's at the affine map of its arguments; the arguments agree, the weights are real numbers by the
    precondition, and the split form is then the affine map. -/
theorem algebraic : Cert.algebraic_KernelIdeal_ReferenceIdeal := by
  intro m ρ m' ρ' hpre hagree
  refine ⟨fun c => Cert.KernelIdeal.Blocks.found m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.ref_affine,
    (hagree c).1, (hagree c).2.1, (hagree c).2.2]
  exact (Cert.KernelIdeal.Blocks.found_affine m c
    (fun j => Cert.Pre_finite_inputs.Finite.weight_real _ _ _ (hpre c) j)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
